-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1024x64 : Shape := ⟨2, ![1024, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S65536x64 .f32) (main_arg1 : FVec F S1024x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S65536x64 : Shape := ⟨2, ![65536, 64]⟩
abbrev S1024x64 : Shape := ⟨2, ![1024, 64]⟩
abbrev S65536x1024 : Shape := ⟨2, ![65536, 1024]⟩
abbrev S2048x64 : Shape := ⟨2, ![2048, 64]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S64x1024 : Shape := ⟨2, ![64, 1024]⟩

abbrev nBuf : Space → Nat
  | .hbm => 3
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536x1024, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S2048x1024, .f32⟩
  | .local _ .vmem, ⟨4, _⟩ => ⟨S2048x1024, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  reduces_S2048x64_S2048 : S2048x64.Reduces [1] S2048
  shapeCasts_S2048_S2048x1 : S2048.ShapeCasts S2048x1
  reduces_S1024x64_S1024 : S1024x64.Reduces [1] S1024
  shapeCasts_S1024_S1x1024 : S1024.ShapeCasts S1x1024
  bitsLt_bf16_f32 : FTy.bits .bf16 < FTy.bits .f32
  transposes_S1024x64_p1_0_S64x1024 : S1024x64.Transposes [1, 0] S64x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1024 : Shape := ⟨1, ![1024]⟩
abbrev S64x1024 : Shape := ⟨2, ![64, 1024]⟩
abbrev S65536x1024 : Shape := ⟨2, ![65536, 1024]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S1024x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S64x1024, .f32⟩
  | .hbm, ⟨10, _⟩ => ⟨S65536x1024, .f32⟩
  | .hbm, ⟨11, _⟩ => ⟨S1x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536x1024, .f32⟩
  | .hbm, ⟨21, _⟩ => ⟨S65536x1024, .f32⟩
  | .hbm, ⟨22, _⟩ => ⟨S65536x1024, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S1024x64_S1024_d1 : S1024x64.ReducesTo [1] S1024
  transposes_S1024x64_S64x1024_1_0 : S1024x64.Transposes [1, 0] S64x1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  dot_S65536x64_S64x1024_S65536x1024_1_0_0_1_n_n_wf : DotDims.WF S65536x64 S64x1024 S65536x1024 [1] [0] [0] [1] [] []

variable [Facts₀]

def dot_S65536x64_S64x1024_S65536x1024_1_0_0_1_n_n : DotDims S65536x64 S64x1024 S65536x1024 where
  lhsContracting := [1]
  rhsContracting := [0]
  lhsNonContracting := [0]
  rhsNonContracting := [1]
  lhsBatch := []
  rhsBatch := []
  wf := dot_S65536x64_S64x1024_S65536x1024_1_0_0_1_n_n_wf

class Facts : Prop extends Facts₀ where

variable [Facts]
-- ==== Proof.Spec.lean ====
/-
  Pairwise Euclidean distances between the rows of `x` (65536 × 64) and the rows of a codebook `e` (1024 × 64),
  through the expansion ‖a − b‖² = ‖a‖² + ‖b‖² − 2·⟨a, b⟩, clamped at zero before the square root.

  Two spellings of one row-pair formula on the extended reals: `sqd` subtracts twice the inner product, `sqdK` adds
  the inner product of the row scaled by −2. They agree whenever every entry is a real number (`sqdK_eq_sqd`): then
  every sum is a real, the factor −2 leaves the sum by distributivity, and a − b = a + (−b). At an infinite entry
  distributivity fails on the extended reals, which is why the entries' finiteness is asked for.
-/
import Idealize.ShloMosaic.PureOps.Ideal
import Idealize.ShloMosaic.PureOps.Ideal.Laws
import Idealize.ShloMosaic.Lib.ValueIdx

noncomputable section

open scoped BigOperators

namespace Cert.Cdist

open Idealize.ShloMosaic Idealize.ShloMosaic.ValueIdx

/-! ## The three float words the two programs spell -/

/-- The word of `2.0` denotes the real 2. -/
theorem ofBits_two : Ideal.ofBits .f32 0x40000000#32 = ((2 : ℝ) : EReal) := by
  simp [Ideal.ofBits, Ideal.ieee, -EReal.coe_mul]; norm_num

/-- The word of `-2.0` denotes the real −2. -/
theorem ofBits_neg_two : Ideal.ofBits .f32 0xC0000000#32 = ((-2 : ℝ) : EReal) := by
  simp [Ideal.ofBits, Ideal.ieee, -EReal.coe_mul]; norm_num

/-- The word of `+inf` denotes the top element. -/
theorem ofBits_inf : Ideal.ofBits .f32 0x7F800000#32 = (⊤ : EReal) := by
  simp [Ideal.ofBits, Ideal.ieee]

/-! ## The row-pair formula, in its two spellings -/

/-- √max(‖a‖² + ‖b‖² − 2·⟨a, b⟩, 0). -/
def sqd (a b : Fin 64 → EReal) : EReal :=
  Ideal.sqrt (max (((∑ k : Fin 64, a k * a k) + ∑ k : Fin 64, b k * b k) - ((2 : ℝ) : EReal) * ∑ k : Fin 64, a k * b k) 0)

/-- √max(‖a‖² + ‖b‖² + ⟨−2·a, b⟩, 0): the factor −2 folded into the first row. -/
def sqdK (a b : Fin 64 → EReal) : EReal :=
  Ideal.sqrt (max (((∑ k : Fin 64, a k * a k) + ∑ k : Fin 64, b k * b k) + ∑ k : Fin 64, (a k * ((-2 : ℝ) : EReal)) * b k) 0)

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For rows of real numbers: ⟨−2·a, b⟩ = −(2·⟨a, b⟩), so adding the one is subtracting the other. -/
theorem scaled_inner (a b : Fin 64 → ℝ) (S : EReal) :
    S + ∑ k : Fin 64, ((a k : EReal) * ((-2 : ℝ) : EReal)) * (b k : EReal)
      = S - ((2 : ℝ) : EReal) * ∑ k : Fin 64, (a k : EReal) * (b k : EReal) := by
  have h1 : ∑ k : Fin 64, ((a k : EReal) * ((-2 : ℝ) : EReal)) * (b k : EReal) = ((∑ k : Fin 64, a k * (-2) * b k : ℝ) : EReal) := by
    rw [coe_sum]; exact Finset.sum_congr rfl fun k _ => by rw [EReal.coe_mul, EReal.coe_mul]
  have h2 : ∑ k : Fin 64, (a k : EReal) * (b k : EReal) = ((∑ k : Fin 64, a k * b k : ℝ) : EReal) := by
    rw [coe_sum]; exact Finset.sum_congr rfl fun k _ => by rw [EReal.coe_mul]
  rw [h1, h2, ← EReal.coe_mul, sub_eq_add_neg, ← EReal.coe_neg]
  congr 2
  rw [Finset.mul_sum, ← Finset.sum_neg_distrib]
  exact Finset.sum_congr rfl fun k _ => by ring

/-- The two spellings agree on rows of real numbers. -/
theorem sqdK_eq_sqd (a b : Fin 64 → EReal) (ha : ∀ k, ∃ r : ℝ, a k = (r : EReal)) (hb : ∀ k, ∃ r : ℝ, b k = (r : EReal)) :
    sqdK a b = sqd a b := by
  choose ar har using ha
  choose br hbr using hb
  obtain rfl : a = fun k => (ar k : EReal) := funext har
  obtain rfl : b = fun k => (br k : EReal) := funext hbr
  unfold sqdK sqd
  rw [scaled_inner]

/-! ## The whole result, index by index -/

/-- Entry (r, c) of the result pairs row r of `x` with row c of the codebook. -/
def dist (x : (⟨2, ![65536, 64]⟩ : Shape).Idx → EReal) (e : (⟨2, ![1024, 64]⟩ : Shape).Idx → EReal) :
    (⟨2, ![65536, 1024]⟩ : Shape).Idx → EReal :=
  fun i => sqd (fun k => x (ix2 (i 0) k)) (fun k => e (ix2 (i 1) k))

/-- The same with the factor −2 folded into the row of `x`. -/
def distK (x : (⟨2, ![65536, 64]⟩ : Shape).Idx → EReal) (e : (⟨2, ![1024, 64]⟩ : Shape).Idx → EReal) :
    (⟨2, ![65536, 1024]⟩ : Shape).Idx → EReal :=
  fun i => sqdK (fun k => x (ix2 (i 0) k)) (fun k => e (ix2 (i 1) k))

/-- On arrays of real numbers the two are one function. -/
theorem distK_eq_dist (x : (⟨2, ![65536, 64]⟩ : Shape).Idx → EReal) (e : (⟨2, ![1024, 64]⟩ : Shape).Idx → EReal)
    (hx : ∀ i, ∃ r : ℝ, x i = (r : EReal)) (he : ∀ i, ∃ r : ℝ, e i = (r : EReal)) : distK x e = dist x e :=
  funext fun i => sqdK_eq_sqd _ _ (fun k => hx _) (fun k => he _)

end Cert.Cdist

end
-- ==== Proof.RefDist.lean ====
/-
  The reference's result, read one operation at a time, is `dist` of its two arguments: the host's two row sums of
  squares (each from the zero word), its inner products of a row of `x` with a column of the transposed codebook — a row
  of the codebook —, twice that subtracted, the clamp at zero and the square root.
-/
import proofs.«149123_j58342835748939_2_alg».proof.Proof.Gen.ReferenceIdeal.Read
import proofs.«149123_j58342835748939_2_alg».proof.Proof.Spec

noncomputable section

namespace Cert.Cdist.Ref

open Cert.ReferenceIdeal Cert.ReferenceIdeal.Read Idealize.ShloMosaic Idealize.ShloMosaic.ValueIdx

/-- The row of `x` a sum of squares at entry `i` runs over. -/
theorem idx_xsq (i : S65536x1024.Idx) (k : Fin 64) :
    idx_main_v1 (idx_main_v2 (idx_main_v8 i)) k = ix2 (i 0) k :=
  funext fun a => Fin.ext (by match a with | ⟨0, _⟩ => rfl | ⟨1, _⟩ => rfl)

/-- The row of the codebook a sum of squares at entry `i` runs over. -/
theorem idx_esq (i : S65536x1024.Idx) (k : Fin 64) :
    idx_main_v4 (idx_main_v7 (idx_main_v9 i)) k = ix2 (i 1) k :=
  funext fun a => Fin.ext (by match a with | ⟨0, _⟩ => rfl | ⟨1, _⟩ => rfl)

/-- The inner product's left factor: row `i 0` of `x`. -/
theorem idx_lhs (i : S65536x1024.Idx) (k : Fin 64) : lidx_main_v6 i k = ix2 (i 0) k :=
  funext fun a => Fin.ext (by match a with | ⟨0, _⟩ => rfl | ⟨1, _⟩ => rfl)

/-- The inner product's right factor, through the transpose: row `i 1` of the codebook. -/
theorem idx_rhs (i : S65536x1024.Idx) (k : Fin 64) : idx_main_v5 (ridx_main_v6 i k) = ix2 (i 1) k :=
  funext fun a => Fin.ext (by match a with | ⟨0, _⟩ => rfl | ⟨1, _⟩ => rfl)

/-- The reference's last stage is `dist`. -/
theorem ref_eq_dist (x0 : (⟨S65536x64, .f32⟩ : BufTy).Contents (Elt Ideal)) (x1 : (⟨S1024x64, .f32⟩ : BufTy).Contents (Elt Ideal)) :
    val_main_v16 (F := Ideal) x0 x1 = dist x0 x1 := by
  funext i
  rw [val_main_v16_apply, val_main_v15_apply, val_main_v14_apply, val_main_cst_2_apply, val_main_v13_apply,
    val_main_v12_apply, val_main_v11_apply, val_main_cst_1_apply, val_main_v6_apply, val_main_v10_apply,
    val_main_v9_apply, val_main_v7_apply, val_main_v4_apply, val_main_v8_apply, val_main_v2_apply, val_main_v1_apply,
    val_main_cst_apply, val_main_cst_0_apply]
  simp only [val_main_v5_apply, val_main_v3_apply, val_main_v0_apply, idx_xsq, idx_esq, idx_lhs, idx_rhs,
    Ideal.hostUnary_sqrt_def, Ideal.maximumf_def, Ideal.subf_def, Ideal.addf_def, Ideal.mulf_def, Ideal.ofBits_def,
    Ideal.ofBits_zero_f32, ofBits_two, zero_add]
  rfl

end Cert.Cdist.Ref

end
-- ==== Proof.KernelEntry.lean ====
/-
  One entry of the block the kernel body stores, read off its arithmetic.

  The body holds a block of 2048 rows of `x` and the whole codebook. Entry (p, q) of what it stores is
  √max((Σₖ x[p,k]² + Σₖ e[q,k]²) + Σₖ (x[p,k]·(−2))·e[q,k], 0): the row sum of squares of `x` laid down as a column and
  repeated along the row, the row sum of squares of the codebook laid down as a row and repeated down the column, and the
  matrix product of the scaled block with the transposed codebook accumulated from zero. The roundings to bf16 on the way
  into the product are the identity on the extended reals. This is `sqdK` of row p of the block and row q of the codebook.
-/
import proofs.«149123_j58342835748939_2_alg».proof.Proof.Gen.KernelIdeal.Skeleton
import proofs.«149123_j58342835748939_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Cdist.Entry

open Cert.KernelIdeal Cert.KernelIdeal.Gen Idealize.ShloMosaic Idealize.ShloMosaic.ValueIdx

/-! ## Two layout steps: a vector laid down as a column, a column repeated along the rows -/

/-- An `[a]` vector cast to an `[a, 1]` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The three terms of an entry -/

/-- A sum along the rows of a 2048 × 64 block, at row `p`. -/
theorem rowsum_blk (v : FVec Ideal S2048x64 .f32) (hφ : FKind.Formats .f32) (hacc : (0x00000000#32 : BitVec 32) = 0x00000000#32)
    (p : Fin 2048) :
    multiReduction .add [1] S2048 v 0x00000000#32 reduces_S2048x64_S2048 hφ hacc (ix1 p) = ∑ k : Fin 64, v (ix2 p k) := by
  refine (Ideal.multiReduction_add_single v 0x00000000#32 reduces_S2048x64_S2048 hφ hacc (ix1 p)).trans ?_
  exact Finset.sum_congr rfl fun k _ => congrArg v (funext fun a => Fin.ext (by match a with | ⟨0, _⟩ => rfl | ⟨1, _⟩ => rfl))

/-- A sum along the rows of the 1024 × 64 codebook, at row `q`. -/
theorem rowsum_cb (v : FVec Ideal S1024x64 .f32) (hφ : FKind.Formats .f32) (hacc : (0x00000000#32 : BitVec 32) = 0x00000000#32)
    (q : Fin 1024) :
    multiReduction .add [1] S1024 v 0x00000000#32 reduces_S1024x64_S1024 hφ hacc (ix1 q) = ∑ k : Fin 64, v (ix2 q k) := by
  refine (Ideal.multiReduction_add_single v 0x00000000#32 reduces_S1024x64_S1024 hφ hacc (ix1 q)).trans ?_
  exact Finset.sum_congr rfl fun k _ => congrArg v (funext fun a => Fin.ext (by match a with | ⟨0, _⟩ => rfl | ⟨1, _⟩ => rfl))

/-- The squared norm of row `p` of the block, as the body spreads it over the row. -/
theorem xsq_at (x0 : Vec Ideal S2048x64 .f32) (p : Fin 2048) (q : Fin 1024) :
    broadcastTo S2048x1024 (shapeCast S2048x1 (multiReduction (F := Ideal) .add [1] S2048 (mulf x0 x0) 0x00000000#32
      reduces_S2048x64_S2048 (.inl rfl) rfl) shapeCasts_S2048_S2048x1) broadcasts_S2048x1_S2048x1024 (ix2 p q)
      = ∑ k : Fin 64, x0 (ix2 p k) * x0 (ix2 p k) :=
  (broadcastTo_a1_ab_apply _ _ p q).trans ((shapeCast_a_a1_apply _ _ p 0).trans (rowsum_blk _ _ _ p))

/-- The squared norm of row `q` of the codebook, as the body spreads it down the column. -/
theorem esq_at (x1 : Vec Ideal S1024x64 .f32) (p : Fin 2048) (q : Fin 1024) :
    broadcastTo S2048x1024 (shapeCast S1x1024 (multiReduction (F := Ideal) .add [1] S1024 (mulf x1 x1) 0x00000000#32
      reduces_S1024x64_S1024 (.inl rfl) rfl) shapeCasts_S1024_S1x1024) broadcasts_S1x1024_S2048x1024 (ix2 p q)
      = ∑ k : Fin 64, x1 (ix2 q k) * x1 (ix2 q k) :=
  (broadcastTo_1b_ab_apply _ _ p q).trans ((shapeCast_a_1a_apply _ _ 0 q).trans (rowsum_cb _ _ _ q))

/-! ## The matrix product, at an entry -/

theorem lhs_0 (i : S2048x1024.Idx) (c : dot_S2048x64_S64x1024_S2048x1024_1_0_0_1_n_n.contr.Idx) :
    (dot_S2048x64_S64x1024_S2048x1024_1_0_0_1_n_n.lhsIdx i c 0).val = (i 0).val := by
  unfold DotDims.lhsIdx
  rw [dif_neg (show ¬(0 : Fin S2048x64.rank) ∈ dot_S2048x64_S64x1024_S2048x1024_1_0_0_1_n_n.lhsBatch by decide),
    dif_pos (show (0 : Fin S2048x64.rank) ∈ dot_S2048x64_S64x1024_S2048x1024_1_0_0_1_n_n.lhsNonContracting by decide)]
  rfl
theorem lhs_1 (i : S2048x1024.Idx) (c : dot_S2048x64_S64x1024_S2048x1024_1_0_0_1_n_n.contr.Idx) :
    (dot_S2048x64_S64x1024_S2048x1024_1_0_0_1_n_n.lhsIdx i c 1).val = (c ⟨0, by decide⟩).val :=
  dot_S2048x64_S64x1024_S2048x1024_1_0_0_1_n_n.lhsIdx_val_of_single rfl i c
theorem rhs_0 (i : S2048x1024.Idx) (c : dot_S2048x64_S64x1024_S2048x1024_1_0_0_1_n_n.contr.Idx) :
    (dot_S2048x64_S64x1024_S2048x1024_1_0_0_1_n_n.rhsIdx i c 0).val = (c ⟨0, by decide⟩).val :=
  dot_S2048x64_S64x1024_S2048x1024_1_0_0_1_n_n.rhsIdx_val_of_single rfl i c
theorem rhs_1 (i : S2048x1024.Idx) (c : dot_S2048x64_S64x1024_S2048x1024_1_0_0_1_n_n.contr.Idx) :
    (dot_S2048x64_S64x1024_S2048x1024_1_0_0_1_n_n.rhsIdx i c 1).val = (i 1).val := by
  unfold DotDims.rhsIdx
  rw [dif_neg (show ¬(1 : Fin S64x1024.rank) ∈ dot_S2048x64_S64x1024_S2048x1024_1_0_0_1_n_n.rhsBatch by decide),
    dif_pos (show (1 : Fin S64x1024.rank) ∈ dot_S2048x64_S64x1024_S2048x1024_1_0_0_1_n_n.rhsNonContracting by decide)]
  rfl

/-- A [2048, 64] × [64, 1024] product accumulated from zero, at (p, q): the sum over k of left (p, k) times right (k, q). -/
theorem product_at (l : FVec Ideal S2048x64 .bf16) (r : FVec Ideal S64x1024 .bf16) (p : Fin 2048) (q : Fin 1024) :
    matmul dot_S2048x64_S64x1024_S2048x1024_1_0_0_1_n_n none l r (constant (F := Ideal) S2048x1024 .f32 0x00000000#32) (ix2 p q)
      = ∑ k : Fin 64, l (ix2 p k) * r (ix2 k q) := by
  simp only [matmul]
  rw [Ideal.matmul_constant_zero_apply,
    ← Equiv.sum_comp (ValueIdx.contrEquiv1 dot_S2048x64_S64x1024_S2048x1024_1_0_0_1_n_n 64 rfl rfl).symm]
  refine Finset.sum_congr rfl fun k _ => ?_
  have hk := ValueIdx.contrEquiv1_symm_val dot_S2048x64_S64x1024_S2048x1024_1_0_0_1_n_n 64 rfl rfl k
  have el : dot_S2048x64_S64x1024_S2048x1024_1_0_0_1_n_n.lhsIdx (ix2 p q)
      ((ValueIdx.contrEquiv1 dot_S2048x64_S64x1024_S2048x1024_1_0_0_1_n_n 64 rfl rfl).symm k) = ix2 p k :=
    funext fun a => Fin.ext (by
      match a with
      | ⟨0, _⟩ => exact lhs_0 _ _
      | ⟨1, _⟩ => exact (lhs_1 _ _).trans hk)
  have er : dot_S2048x64_S64x1024_S2048x1024_1_0_0_1_n_n.rhsIdx (ix2 p q)
      ((ValueIdx.contrEquiv1 dot_S2048x64_S64x1024_S2048x1024_1_0_0_1_n_n 64 rfl rfl).symm k) = ix2 k q :=
    funext fun a => Fin.ext (by
      match a with
      | ⟨0, _⟩ => exact (rhs_0 _ _).trans hk
      | ⟨1, _⟩ => exact rhs_1 _ _)
  rw [el, er]

/-- The body's product term at (p, q): row p of the block scaled by −2, against row q of the codebook. -/
theorem cross_at (x0 : Vec Ideal S2048x64 .f32) (x1 : Vec Ideal S1024x64 .f32) (p : Fin 2048) (q : Fin 1024) :
    matmul dot_S2048x64_S64x1024_S2048x1024_1_0_0_1_n_n none
      (truncf .bf16 (mulf x0 (broadcast S2048x64 (Scalar.ofBits (F := Ideal) .f32 0xC0000000#32))) bitsLt_bf16_f32)
      (transpose S64x1024 [1, 0] (truncf .bf16 x1 bitsLt_bf16_f32) transposes_S1024x64_p1_0_S64x1024)
      (constant (F := Ideal) S2048x1024 .f32 0x00000000#32) (ix2 p q)
      = ∑ k : Fin 64, (x0 (ix2 p k) * ((-2 : ℝ) : EReal)) * x1 (ix2 q k) := by
  refine (product_at _ _ p q).trans (Finset.sum_congr rfl fun k _ => ?_)
  have hl : (truncf .bf16 (mulf x0 (broadcast S2048x64 (Scalar.ofBits (F := Ideal) .f32 0xC0000000#32))) bitsLt_bf16_f32 :
      FVec Ideal S2048x64 .bf16) (ix2 p k) = x0 (ix2 p k) * ((-2 : ℝ) : EReal) := by
    show x0 (ix2 p k) * Ideal.ofBits .f32 0xC0000000#32 = _
    rw [ofBits_neg_two]
  have hr : (transpose S64x1024 [1, 0] (truncf .bf16 x1 bitsLt_bf16_f32) transposes_S1024x64_p1_0_S64x1024 :
      FVec Ideal S64x1024 .bf16) (ix2 k q) = x1 (ix2 q k) :=
    transpose_ix2_apply _ _ k q
  rw [hl, hr]

/-! ## The stored entry -/

/-- Entry (p, q) of the block the body stores is `sqdK` of row p of the block of `x` and row q of the codebook. -/
theorem pay_at (x0 : Vec Ideal S2048x64 .f32) (x1 : Vec Ideal S1024x64 .f32) (p : Fin 2048) (q : Fin 1024) :
    k0_pay1 (F := Ideal) x0 x1 (ix2 p q) = sqdK (fun k => x0 (ix2 p k)) (fun k => x1 (ix2 q k)) := by
  have hz : broadcast S2048x1024 (Scalar.ofBits (F := Ideal) .f32 0x00000000#32) (ix2 p q) = (0 : EReal) :=
    Ideal.ofBits_zero_f32
  unfold k0_pay1 sqdK
  exact congrArg Ideal.sqrt (congrArg₂ max
    (congrArg₂ (· + ·) (congrArg₂ (· + ·) (xsq_at x0 p q) (esq_at x1 p q)) (cross_at x0 x1 p q)) hz)

end Cert.Cdist.Entry

end
-- ==== Proof.KernelArray.lean ====
/-
  From blocks to the array. The grid has 32 points; point t holds rows 2048·t … 2048·t + 2047 of `x` and the whole
  codebook, and writes back rows 2048·t … 2048·t + 2047 of the result, all 1024 columns. What it writes back is the
  matching block of `distK x e`: entry (p, q) of the stored block pairs row p of the block of `x` — row 2048·t + p of
  `x` — with row q of the codebook. The 32 blocks tile the result (row r lies in block r / 2048), so after the run the
  result array is `distK x e` everywhere.
-/
import proofs.«149123_j58342835748939_2_alg».proof.Proof.Gen.KernelIdeal.Value
import proofs.«149123_j58342835748939_2_alg».proof.Proof.KernelEntry

noncomputable section

namespace Cert.Cdist.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The three index maps over the grid: the block of `x` and the block of the result move together down the rows, one
    block per point; the codebook's block and every column block stay at 0. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of `x` is the row of `x` that entry (p, q) of point t's result block sits in. -/
theorem row_of_x (c : Dev nD) (t : Fin cfg0.N) (p : Fin 2048) (q : Fin 1024) (k : Fin 64) :
    iblk m c 0 t (ix2 p k) = V m c main_arg0 (ix2 ((((cfg0.win 2).blk t).view.emb (ix2 p q)) 0) k) := by
  obtain ⟨e0, e1, e2, e3, e4, e5⟩ := index_maps t
  show V m c main_arg0 (((cfg0.win 0).blk t).view.emb (ix2 p k)) = _
  refine congrArg (V m c main_arg0) (funext fun a => Fin.ext ?_)
  match a with
  | ⟨0, _⟩ =>
    show win0_0.index t (0 : Fin 2) * 2048 + 1 * p.val = win0_2.index t (0 : Fin 2) * 2048 + 1 * p.val
    omega
  | ⟨1, _⟩ =>
    show win0_0.index t (1 : Fin 2) * 64 + 1 * k.val = k.val
    omega

/-- Row q of the codebook's block is row q of the codebook: the column of the result that entry (p, q) sits in. -/
theorem row_of_e (c : Dev nD) (t : Fin cfg0.N) (p : Fin 2048) (q : Fin 1024) (k : Fin 64) :
    iblk m c 1 t (ix2 q k) = V m c main_arg1 (ix2 ((((cfg0.win 2).blk t).view.emb (ix2 p q)) 1) k) := by
  obtain ⟨e0, e1, e2, e3, e4, e5⟩ := index_maps t
  show V m c main_arg1 (((cfg0.win 1).blk t).view.emb (ix2 q k)) = _
  refine congrArg (V m c main_arg1) (funext fun a => Fin.ext ?_)
  match a with
  | ⟨0, _⟩ =>
    show win0_1.index t (0 : Fin 2) * 1024 + 1 * q.val = win0_2.index t (1 : Fin 2) * 1024 + 1 * q.val
    omega
  | ⟨1, _⟩ =>
    show win0_1.index t (1 : Fin 2) * 64 + 1 * k.val = k.val
    omega

/-- What point t writes back is block t of `distK` of the two argument arrays. -/
theorem flushed_eq (c : Dev nD) (t : Fin cfg0.N) :
    (dats m 0 c).flushed 2 t
      = ((cfg0.win 2).blk t).view.read (Elt Ideal) (Cert.Cdist.distK (V m c main_arg0) (V m c main_arg1)) := by
  rw [Cert.KernelIdeal.Value.flushed2]
  unfold out0_2
  rw [View.canon_unit_zero origin]
  simp only [View.ld_unit_zero (S := S2048x64) origin, View.ld_unit_zero (S := S1024x64) origin]
  funext j
  obtain ⟨p, q, rfl⟩ : ∃ (p : Fin 2048) (q : Fin 1024), j = ix2 p q := ⟨j 0, j 1, eq_ix2 j⟩
  show k0_pay1 (F := Ideal) (iblk m c 0 t) (iblk m c 1 t) (ix2 p q)
    = Cert.Cdist.distK (V m c main_arg0) (V m c main_arg1) (((cfg0.win 2).blk t).view.emb (ix2 p q))
  refine (Cert.Cdist.Entry.pay_at (iblk m c 0 t) (iblk m c 1 t) p q).trans ?_
  unfold Cert.Cdist.distK
  exact congrArg₂ Cert.Cdist.sqdK (funext fun k => row_of_x m c t p q k) (funext fun k => row_of_e m c t p q k)

/-- An index of the result is in point t's block iff each coordinate is in the block's range on its axis. -/
theorem mem_blk (t : Fin cfg0.N) (i : S65536x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- Every index of the result lies in some point's block: row r in the block of point r / 2048. -/
theorem covered (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : grid0.N = 32 := N_0
  have ht : (i 0).val / 2048 < cfg0.N := by show (i 0).val / 2048 < grid0.N; omega
  obtain ⟨e0, e1, e2, e3, e4, e5⟩ := index_maps ⟨(i 0).val / 2048, ht⟩
  refine ⟨⟨(i 0).val / 2048, ht⟩, flush0_2 _, ?_⟩
  rw [mem_blk]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e4]
    show (i 0).val / 2048 * 2048 ≤ (i 0).val ∧ (i 0).val < (i 0).val / 2048 * 2048 + 2048
    omega
  | ⟨1, _⟩ =>
    show win0_2.index ⟨(i 0).val / 2048, ht⟩ (1 : Fin 2) * 1024 ≤ (i 1).val
      ∧ (i 1).val < win0_2.index ⟨(i 0).val / 2048, ht⟩ (1 : Fin 2) * 1024 + 1024
    rw [e5]
    omega

/-- After the run the result array is `distK` of the argument arrays as launched. -/
theorem final (c : Dev nD) :
    (dats m 0 c).arrAt 2 cfg0.N
      = Cert.Cdist.distK (m ((c.tc : Thread nD τ).loc main_arg0)) (m ((c.tc : Thread nD τ).loc main_arg1)) :=
  (dats m 0 c).arrAt_eq_of_cover 2 (Cert.Cdist.distK (V m c main_arg0) (V m c main_arg1))
    (fun t _ => flushed_eq m c t) covered

/-- The kernel's run: the result array ends at `distK` of the arguments, the arguments unchanged. -/
theorem run : θ_run defs (onTc (τ := τ) (main (F := Ideal))) ⟨m, fun _ => 0, ρ⟩ fun r => ∀ c : Dev nD,
      r.2.mem ((c.tc : Thread nD τ).loc main_v0)
        = Cert.Cdist.distK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩)
    (Cert.KernelIdeal.Value.run_blocks m ρ)

end Cert.Cdist.Array

end
-- ==== Proof.Finite.lean ====
/-
  What the precondition gives: every entry of both arguments is a real number.

  The precondition is the conjunction of two tests, one per argument: |entry| < +∞ at every index, folded by `and` over
  the whole array. The fold being 1 gives the comparison at each index; on the extended reals |a| = max(a, −a) < ⊤ rules
  out both a = ⊤ and a = ⊥, which leaves a real number.
-/
import proofs.«149123_j58342835748939_2_alg».proof.Pre_finite_inputs
import proofs.«149123_j58342835748939_2_alg».proof.Proof.Gen.Pre_finite_inputs
import proofs.«149123_j58342835748939_2_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.Cdist.Finite

open Cert.Pre_finite_inputs Idealize.ShloMosaic Idealize.ShloMosaic.ValueIdx

/-- The scalar shape has one index. -/
instance : Subsingleton S_.Idx := ⟨fun a b => funext fun d => d.elim0⟩

/-- An extended real whose absolute value compares below the word of +∞ is a real number. -/
theorem real_of_abs_lt (a : EReal)
    (h : FloatOps.cmpf (F := Ideal) (φ := .f32) .olt (FloatOps.hostAbsf (F := Ideal) (φ := .f32) a)
      (FloatOps.ofBits (F := Ideal) .f32 0x7F800000#32) = 1#1) : ∃ r : ℝ, a = (r : EReal) := by
  rw [Ideal.cmpf_def, Ideal.hostAbsf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- Under the precondition both arguments hold real numbers only. -/
theorem real_of_pre (x0 : FVec Ideal S65536x64 .f32) (x1 : FVec Ideal S1024x64 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  refine ⟨fun i => ?_, fun i => ?_⟩
  · have e := Host.reduce_andi_all _ _ _ _ ix0 ha i
    refine real_of_abs_lt (x0 i) ?_
    rw [← e]
    rfl
  · have e := Host.reduce_andi_all _ _ _ _ ix0 hb i
    refine real_of_abs_lt (x1 i) ?_
    rw [← e]
    rfl

end Cert.Cdist.Finite

end
-- ==== Proof.lean ====
/-
  Pairwise Euclidean distances of 65536 vectors against a codebook of 1024, both of dimension 64: the kernel against
  its reference, on the extended reals.

  Both programs expand ‖x − e‖² = ‖x‖² + ‖e‖² − 2·⟨x, e⟩, clamp at zero and take the square root. They differ in one place:
  the reference forms the inner product ⟨x, e⟩ and subtracts twice it, the kernel scales the row of x by −2 before the
  product and adds. For rows of real numbers −(2·Σₖ xₖeₖ) = Σₖ (xₖ·(−2))·eₖ by distributivity, and a − b = a + (−b), so the
  two results agree entry by entry (`Cert.Cdist.distK_eq_dist`). Distributivity fails at infinite entries of the extended
  reals, so the precondition — every entry of both inputs finite — is used exactly there (`Cert.Cdist.Finite.real_of_pre`).

  The kernel's side: each of the 32 grid points writes back the matching 2048 × 1024 block of `distK x e`, and the blocks
  tile the result (Proof/KernelEntry.lean: one entry of a stored block; Proof/KernelArray.lean: blocks to the array, over
  the generated blockwise value module). The reference's side: its generated run, read one operation at a time, is
  `dist x e` (Proof/RefDist.lean, over the generated read-at-an-index module). The three frames are the generated ones; the
  idealization rewrote nothing, so there is nothing to preserve.
-/
import proofs.«149123_j58342835748939_2_alg».proof.Defs
import proofs.«149123_j58342835748939_2_alg».proof.Proof.Gen.Kernel
import proofs.«149123_j58342835748939_2_alg».proof.Proof.Gen.Kernel.Skeleton
import proofs.«149123_j58342835748939_2_alg».proof.Proof.Gen.Kernel.Launch
import proofs.«149123_j58342835748939_2_alg».proof.Proof.Gen.Kernel.Points
import proofs.«149123_j58342835748939_2_alg».proof.Proof.Gen.Kernel.Frame
import proofs.«149123_j58342835748939_2_alg».proof.Proof.Gen.KernelIdeal
import proofs.«149123_j58342835748939_2_alg».proof.Proof.Gen.KernelIdeal.Skeleton
import proofs.«149123_j58342835748939_2_alg».proof.Proof.Gen.KernelIdeal.Launch
import proofs.«149123_j58342835748939_2_alg».proof.Proof.Gen.KernelIdeal.Points
import proofs.«149123_j58342835748939_2_alg».proof.Proof.Gen.KernelIdeal.Frame
import proofs.«149123_j58342835748939_2_alg».proof.Proof.Gen.ReferenceIdeal
import proofs.«149123_j58342835748939_2_alg».proof.Proof.Gen.Pre_finite_inputs
import proofs.«149123_j58342835748939_2_alg».proof.Proof.Gen.KernelIdeal.Value
import proofs.«149123_j58342835748939_2_alg».proof.Proof.Gen.ReferenceIdeal.Run
import proofs.«149123_j58342835748939_2_alg».proof.Proof.Gen.ReferenceIdeal.Read
import proofs.«149123_j58342835748939_2_alg».proof.Proof.Spec
import proofs.«149123_j58342835748939_2_alg».proof.Proof.RefDist
import proofs.«149123_j58342835748939_2_alg».proof.Proof.KernelEntry
import proofs.«149123_j58342835748939_2_alg».proof.Proof.KernelArray
import proofs.«149123_j58342835748939_2_alg».proof.Proof.Finite
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- The same for the kernel read on the extended reals. -/
theorem frame_kernel_ideal : Cert.frame_KernelIdeal := fun m ρ _ => Cert.KernelIdeal.Gen.frame m ρ

/-- The reference runs and leaves its arguments as they were: its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments, both programs end with the same distances: the kernel at `distK` of
    its arguments, the reference at `dist` of the same arrays, and the two are one function on arrays of real numbers,
    which the precondition makes them. -/
theorem algebraic : Cert.algebraic_KernelIdeal_ReferenceIdeal := by
  intro m ρ m' ρ' hpre hagree
  refine ⟨fun c => Cert.Cdist.distK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Cdist.Array.run m ρ, ?_⟩
  refine (θ_run Cert.ReferenceIdeal.defs _ _).mono (fun _ h c => ⟨(h c).1.trans ?_, (h c).2⟩)
    (Cert.ReferenceIdeal.Value.run (F := Ideal) m' ρ')
  obtain ⟨hx, he⟩ := Cert.Cdist.Finite.real_of_pre _ _ (hpre c)
  rw [Cert.ReferenceIdeal.Read.val_main_v16_eq, Cert.Cdist.Ref.ref_eq_dist, (hagree c).1, (hagree c).2]
  exact (Cert.Cdist.distK_eq_dist _ _ hx he).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
